-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S8x8x1x4096 : Shape := ⟨4, ![8, 8, 1, 4096]⟩
abbrev S8x512x3 : Shape := ⟨3, ![8, 512, 3]⟩
abbrev S8x3x256 : Shape := ⟨3, ![8, 3, 256]⟩
abbrev S8x512x1 : Shape := ⟨3, ![8, 512, 1]⟩
abbrev S1x8x1x256 : Shape := ⟨4, ![1, 8, 1, 256]⟩
abbrev S8x1x256 : Shape := ⟨3, ![8, 1, 256]⟩
abbrev S8x512x256 : Shape := ⟨3, ![8, 512, 256]⟩
abbrev S8x512 : Shape := ⟨2, ![8, 512]⟩
abbrev S8x256 : Shape := ⟨2, ![8, 256]⟩
abbrev S8x4096 : Shape := ⟨2, ![8, 4096]⟩
abbrev S8x8x4096 : Shape := ⟨3, ![8, 8, 4096]⟩
abbrev S_ : Shape := ⟨0, ![]⟩

abbrev nBuf : Space → Nat
  | .hbm => 28
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x8x1x4096, .f32⟩
  | .hbm, ⟨5, _⟩ => ⟨S8x4096, .f32⟩
  | .hbm, ⟨6, _⟩ => ⟨S8x8x4096, .f32⟩
  | .hbm, ⟨7, _⟩ => ⟨S_, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x4096, .f32⟩
  | .hbm, ⟨19, _⟩ => ⟨S8x4096, .f32⟩
  | .hbm, ⟨20, _⟩ => ⟨S8x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x3x256, .f32⟩
  | .local _ .vmem, ⟨3, _⟩ => ⟨S8x3x256, .f32⟩
  | .local _ .vmem, ⟨4, _⟩ => ⟨S8x512x1, .f32⟩
  | .local _ .vmem, ⟨5, _⟩ => ⟨S8x512x1, .f32⟩
  | .local _ .vmem, ⟨6, _⟩ => ⟨S1x8x1x256, .f32⟩
  | .local _ .vmem, ⟨7, _⟩ => ⟨S1x8x1x256, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8x4096x3_S8x3x4096_0_2_1 : S8x4096x3.Transposes [0, 2, 1] S8x3x4096
  inb_S8x512x1_S8x512x1_0_0_0 : ∀ a, (![0, 0, 0] : Fin 3 → Nat) a + S8x512x1.size a ≤ S8x512x1.size a
  h_S8x512x1 : 0 < S8x512x1.numel
  inb_S8x512x3_S8x512x1_0_0_0 : ∀ a, (![0, 0, 0] : Fin 3 → Nat) a + S8x512x1.size a ≤ S8x512x3.size a
  inb_S8x512x3_S8x512x1_0_0_1 : ∀ a, (![0, 0, 1] : Fin 3 → Nat) a + S8x512x1.size a ≤ S8x512x3.size a
  inb_S8x512x3_S8x512x1_0_0_2 : ∀ a, (![0, 0, 2] : Fin 3 → Nat) a + S8x512x1.size a ≤ S8x512x3.size a
  inb_S8x3x256_S8x1x256_0_0_0 : ∀ a, (![0, 0, 0] : Fin 3 → Nat) a + S8x1x256.size a ≤ S8x3x256.size a
  h_S8x1x256 : 0 < S8x1x256.numel
  shapeCasts_S8x1x256_S8x1x256 : S8x1x256.ShapeCasts S8x1x256
  inb_S8x3x256_S8x1x256_0_1_0 : ∀ a, (![0, 1, 0] : Fin 3 → Nat) a + S8x1x256.size a ≤ S8x3x256.size a
  inb_S8x3x256_S8x1x256_0_2_0 : ∀ a, (![0, 2, 0] : Fin 3 → Nat) a + S8x1x256.size a ≤ S8x3x256.size a
  broadcasts_S8x512x1_S8x512x256 : S8x512x1.Broadcasts S8x512x256
  broadcasts_S8x1x256_S8x512x256 : S8x1x256.Broadcasts S8x512x256
  reduces_S8x512x256_S8x512 : S8x512x256.Reduces [2] S8x512
  shapeCasts_S8x512_S8x512x1 : S8x512.ShapeCasts S8x512x1
  shapeCasts_S8x512x1_S8x512x1 : S8x512x1.ShapeCasts S8x512x1
  reduces_S8x512x256_S8x256 : S8x512x256.Reduces [1] S8x256
  shapeCasts_S8x256_S8x1x256 : S8x256.ShapeCasts S8x1x256
  shapeCasts_S8x1x256_S1x8x1x256 : S8x1x256.ShapeCasts S1x8x1x256
  inb_S1x8x1x256_S1x8x1x256_0_0_0_0 : ∀ a, (![0, 0, 0, 0] : Fin 4 → Nat) a + S1x8x1x256.size a ≤ S1x8x1x256.size a
  h_S1x8x1x256 : 0 < S1x8x1x256.numel
  shapeCasts_S8x4096x1_S8x4096 : S8x4096x1.ShapeCasts S8x4096
  shapeCasts_S8x8x1x4096_S8x8x4096 : S8x8x1x4096.ShapeCasts S8x8x4096
  reducesTo_S8x8x4096_S8x4096_d0 : S8x8x4096.ReducesTo [0] S8x4096
  h_S_ : 0 < S_.numel
  bcast_S_S8x4096 : S_.BroadcastsInDim S8x4096 (![] : Fin 0 → Fin S8x4096.rank)
  reducesTo_S8x4096_S_d0_1 : S8x4096.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x256.size a ≤ S8x3x4096.size a
  hwx0_1 : ∀ i : grid0.Coords, EltTy.bits .f32 = 32 ∨ (Rect.block (s := S8x3x4096) S8x3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x1.size a ≤ S8x4096x1.size a
  hwx0_2 : ∀ i : grid0.Coords, EltTy.bits .f32 = 32 ∨ (Rect.block (s := S8x4096x1) S8x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1x256.size a ≤ S8x8x1x4096.size a
  hwx0_3 : ∀ i : grid0.Coords, EltTy.bits .f32 = 32 ∨ (Rect.block (s := S8x8x1x4096) S1x8x1x256.size (cc0_transform_3 i) (hinb0_3 i)).WholeWords (EltTy.packing .f32)

variable [Facts₀]

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩
abbrev main_cst_12 : Ref sig .tc := ⟨.hbm, 42, rfl⟩
abbrev main_v27 : Ref sig .tc := ⟨.hbm, 43, rfl⟩
abbrev main_v28 : Ref sig .tc := ⟨.hbm, 44, rfl⟩
abbrev main_cst_13 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Pieces.lean ====
/-
  What one run of the kernel body leaves in its two output blocks, as values.

  The body reads the three coordinate columns of its source block `x0` ([8,512,3]: columns as [8,512,1] slices at
  offsets 0, 1, 2 of the last axis) and the three coordinate rows of its target block `x1` ([8,3,256]: rows as
  [8,1,256] slices at offsets 0, 1, 2 of the middle axis), forms the tile of squared distances, and stores
    · into the first output block the minimum of what the block held and the tile's minimum along the target axis —
      at the first target tile of a row of the grid the block is first reset to +∞ —,
    · into the second output block the tile's minimum along the source axis.
  Each case's stores cover the block through the whole-block rectangle, so what is left is the last store's payload.
-/
import proofs.«178521_j24215025614920_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Coordinate columns 0, 1, 2 of a source block. -/
def sx (x0 : Vec F S8x512x3 .f32) : Vec F S8x512x1 .f32 :=
  View.ld x0 (Rect.unit (s := S8x512x3) ![0, 0, 0] S8x512x1.size inb_S8x512x3_S8x512x1_0_0_0)
def sy (x0 : Vec F S8x512x3 .f32) : Vec F S8x512x1 .f32 :=
  View.ld x0 (Rect.unit (s := S8x512x3) ![0, 0, 1] S8x512x1.size inb_S8x512x3_S8x512x1_0_0_1)
def sz (x0 : Vec F S8x512x3 .f32) : Vec F S8x512x1 .f32 :=
  View.ld x0 (Rect.unit (s := S8x512x3) ![0, 0, 2] S8x512x1.size inb_S8x512x3_S8x512x1_0_0_2)
/-- Coordinate rows 0, 1, 2 of a target block. -/
def tx (x1 : Vec F S8x3x256 .f32) : Vec F S8x1x256 .f32 :=
  View.ld x1 (Rect.unit (s := S8x3x256) ![0, 0, 0] S8x1x256.size inb_S8x3x256_S8x1x256_0_0_0)
def ty (x1 : Vec F S8x3x256 .f32) : Vec F S8x1x256 .f32 :=
  View.ld x1 (Rect.unit (s := S8x3x256) ![0, 1, 0] S8x1x256.size inb_S8x3x256_S8x1x256_0_1_0)
def tz (x1 : Vec F S8x3x256 .f32) : Vec F S8x1x256 .f32 :=
  View.ld x1 (Rect.unit (s := S8x3x256) ![0, 2, 0] S8x1x256.size inb_S8x3x256_S8x1x256_0_2_0)

/-- The cross terms ⟨s, t⟩ of the tile. -/
abbrev cross (x0 : Vec F S8x512x3 .f32) (x1 : Vec F S8x3x256 .f32) : FVec F S8x512x256 .f32 :=
  k0_pay8 (sx x0) (sy x0) (sz x0) (tx x1) (ty x1) (tz x1)
/-- The squared norms |s|² + |t|² of the tile. -/
abbrev norms (x0 : Vec F S8x512x3 .f32) (x1 : Vec F S8x3x256 .f32) : FVec F S8x512x256 .f32 :=
  k0_pay9 (sx x0) (sy x0) (sz x0) (tx x1) (ty x1) (tz x1)
/-- The factor 2. -/
abbrev twoW : F .f32 := FloatOps.ofBits .f32 0x40000000#32

/-- The first output block after a step that found `xo` in it. -/
abbrev stepMin (x0 : Vec F S8x512x3 .f32) (x1 : Vec F S8x3x256 .f32) (xo : Vec F S8x512x1 .f32) : Vec F S8x512x1 .f32 :=
  k0_pay2 (cross x0 x1) (norms x0 x1) twoW xo
/-- The second output block after any step. -/
abbrev tileMin (x0 : Vec F S8x512x3 .f32) (x1 : Vec F S8x3x256 .f32) : Vec F S1x8x1x256 .f32 :=
  k0_pay3 (cross x0 x1) (norms x0 x1) twoW

/-- A later target tile: the first output block goes from `xo` to `stepMin … xo`. -/
theorem out_B_2 (c : Dev nD) (i : grid0.Coords) (a2 : Memref sig .tc .vmem S8x512x3 .f32) (h2 : a2.IsWhole)
    (a3 : Memref sig .tc .vmem S8x3x256 .f32) (h3 : a3.IsWhole) (a4 : Memref sig .tc .vmem S8x512x1 .f32) (h4 : a4.IsWhole)
    (a5 : Memref sig .tc .vmem S1x8x1x256 .f32) (h5 : a5.IsWhole) (hc : ¬cond0_0 i)
    (x0 : Vec F S8x512x3 .f32) (x1 : Vec F S8x3x256 .f32) (xo : Vec F S8x512x1 .f32) :
    out0_B_2 c i a2 h2 a3 h3 a4 h4 a5 h5 hc x0 x1 xo = stepMin x0 x1 xo := by
  unfold out0_B_2
  rw [View.read_writes_eq_canon _ _ _ (cover0_B_2 c i a2 h2 a3 h3 a4 h4 a5 h5 hc x0 x1 xo)]
  unfold kernelRun0_B
  dsimp only
  sl_unfold_words
  rw [View.canon_unit_zero hz3]
  simp only [View.readAt_eq_ld, h2.read_unread, h3.read_unread, h4.read_unread, View.ld_unit_zero (S := S8x512x1) hz3]
  rfl

/-- The first target tile: the first output block is reset to +∞ and then stepped. -/
theorem out_A_2 (c : Dev nD) (i : grid0.Coords) (a2 : Memref sig .tc .vmem S8x512x3 .f32) (h2 : a2.IsWhole)
    (a3 : Memref sig .tc .vmem S8x3x256 .f32) (h3 : a3.IsWhole) (a4 : Memref sig .tc .vmem S8x512x1 .f32) (h4 : a4.IsWhole)
    (a5 : Memref sig .tc .vmem S1x8x1x256 .f32) (h5 : a5.IsWhole) (hc : cond0_0 i)
    (x0 : Vec F S8x512x3 .f32) (x1 : Vec F S8x3x256 .f32) :
    out0_A_2 c i a2 h2 a3 h3 a4 h4 a5 h5 hc x0 x1 = stepMin x0 x1 k0_pay4 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S8x512x1) hz3, View.readCov_unit_zero (S := S8x512x1) _ hz3]
  simp only [View.readAt_eq_ld, h2.read_unread, h3.read_unread]
  rfl

/-- The second output block, at a later target tile … -/
theorem out_B_3 (c : Dev nD) (i : grid0.Coords) (a2 : Memref sig .tc .vmem S8x512x3 .f32) (h2 : a2.IsWhole)
    (a3 : Memref sig .tc .vmem S8x3x256 .f32) (h3 : a3.IsWhole) (a4 : Memref sig .tc .vmem S8x512x1 .f32) (h4 : a4.IsWhole)
    (a5 : Memref sig .tc .vmem S1x8x1x256 .f32) (h5 : a5.IsWhole) (hc : ¬cond0_0 i)
    (x0 : Vec F S8x512x3 .f32) (x1 : Vec F S8x3x256 .f32) (xo : Vec F S8x512x1 .f32) :
    out0_B_3 c i a2 h2 a3 h3 a4 h4 a5 h5 hc x0 x1 xo = tileMin x0 x1 := by
  unfold out0_B_3
  rw [View.read_writes_eq_canon _ _ _ (cover0_B_3 c i a2 h2 a3 h3 a4 h4 a5 h5 hc x0 x1 xo)]
  unfold kernelRun0_B
  dsimp only
  sl_unfold_words
  rw [View.canon_unit_zero hz4]
  simp only [View.readAt_eq_ld, h2.read_unread, h3.read_unread]
  rfl

/-- … and at the first. -/
theorem out_A_3 (c : Dev nD) (i : grid0.Coords) (a2 : Memref sig .tc .vmem S8x512x3 .f32) (h2 : a2.IsWhole)
    (a3 : Memref sig .tc .vmem S8x3x256 .f32) (h3 : a3.IsWhole) (a4 : Memref sig .tc .vmem S8x512x1 .f32) (h4 : a4.IsWhole)
    (a5 : Memref sig .tc .vmem S1x8x1x256 .f32) (h5 : a5.IsWhole) (hc : cond0_0 i)
    (x0 : Vec F S8x512x3 .f32) (x1 : Vec F S8x3x256 .f32) :
    out0_A_3 c i a2 h2 a3 h3 a4 h4 a5 h5 hc x0 x1 = tileMin x0 x1 := by
  unfold out0_A_3
  rw [View.read_writes_eq_canon _ _ _ (cover0_A_3 c i a2 h2 a3 h3 a4 h4 a5 h5 hc x0 x1)]
  unfold kernelRun0_A
  dsimp only
  sl_unfold_words
  rw [View.canon_unit_zero hz4]
  simp only [View.readAt_eq_ld, h2.read_unread, h3.read_unread]
  rfl

end Cert.KernelIdeal.Body

end
-- ==== Proof.Spec.lean ====
/-
  The Chamfer distance of two clouds of 8 × 4096 points of three coordinates, over the extended reals.

  For a source point s = p(b, n) and a target point t = q(b, m) of the same batch b the squared distance is written
  through the Gram identity, |s|² + |t|² − 2·⟨s, t⟩; `root` clamps it at zero and takes the square root. Every source
  point keeps the nearest target (`toTarget`) and every target point the nearest source (`toSource`), as minima over the
  4096 candidates starting from +∞; the loss is the mean over all 8 · 4096 = 32768 points of the first plus the mean
  of the second, times one. The minima are of SQUARED distances and the root is taken afterwards; that this agrees
  with rooting first and minimizing afterwards is a theorem about `root` (monotone, fixing +∞), not part of this
  definition.
-/
import Idealize.ShloMosaic.PureOps.Ideal
import Idealize.ShloMosaic.Lib.ValueIdx

noncomputable section

open scoped BigOperators

namespace Cert.Chamfer

open Idealize.ShloMosaic Idealize.ShloMosaic.ValueIdx

/-- A batch of 8 clouds of 4096 points with 3 coordinates each, entry (b, n, k) coordinate k of point n of batch b. -/
abbrev Cloud : Type := (⟨3, ![8, 4096, 3]⟩ : Shape).Idx → EReal

/-- Point 512·t + r of a cloud: row r of the t-th tile of 512 points. -/
def row (t : Fin 8) (r : Fin 512) : Fin 4096 := ⟨512 * t.val + r.val, by have := t.isLt; have := r.isLt; omega⟩

/-- Point 256·j + l of a cloud: lane l of the j-th tile of 256 points. -/
def col (j : Fin 16) (l : Fin 256) : Fin 4096 := ⟨256 * j.val + l.val, by have := j.isLt; have := l.isLt; omega⟩

/-- The factor 2 of the Gram identity, as the two programs spell it (never evaluated: both sides carry the same word). -/
def two : EReal := Ideal.ofBits .f32 0x40000000#32

/-- |p(b, n)|², summed first coordinate to last. -/
def sq (p : Cloud) (b : Fin 8) (n : Fin 4096) : EReal :=
  (p (ix3 b n (0 : Fin 3)) * p (ix3 b n (0 : Fin 3)) + p (ix3 b n (1 : Fin 3)) * p (ix3 b n (1 : Fin 3)))
    + p (ix3 b n (2 : Fin 3)) * p (ix3 b n (2 : Fin 3))

/-- ⟨p(b, n), q(b, m)⟩, summed first coordinate to last. -/
def dot (p q : Cloud) (b : Fin 8) (n m : Fin 4096) : EReal :=
  (p (ix3 b n (0 : Fin 3)) * q (ix3 b m (0 : Fin 3)) + p (ix3 b n (1 : Fin 3)) * q (ix3 b m (1 : Fin 3)))
    + p (ix3 b n (2 : Fin 3)) * q (ix3 b m (2 : Fin 3))

/-- The squared distance of source point n and target point m of batch b: |s|² + |t|² − 2⟨s, t⟩. -/
def d2 (p q : Cloud) (b : Fin 8) (n m : Fin 4096) : EReal :=
  (sq p b n + sq q b m) - two * dot p q b n m

/-- Clamp at zero, then the square root (+∞ stays +∞). -/
def root (x : EReal) : EReal := Ideal.sqrt (max x 0)

/-- The squared distance from source point n to its nearest target point. -/
def toTarget (p q : Cloud) (b : Fin 8) (n : Fin 4096) : EReal :=
  (Finset.univ : Finset (Fin 4096)).fold min ⊤ fun m => d2 p q b n m

/-- The squared distance from target point m to its nearest source point. -/
def toSource (p q : Cloud) (b : Fin 8) (m : Fin 4096) : EReal :=
  (Finset.univ : Finset (Fin 4096)).fold min ⊤ fun n => d2 p q b n m

/-- The mean of a table of 8 × 4096 values: their sum divided by 32768. -/
def mean (f : Fin 8 → Fin 4096 → EReal) : EReal :=
  Ideal.div (∑ b : Fin 8, ∑ n : Fin 4096, f b n) (Ideal.ofBits .f32 0x47000000#32)

/-- The loss: one times (mean distance to the nearest target + mean distance to the nearest source). -/
def loss (p q : Cloud) : EReal :=
  Ideal.ofBits .f32 0x3F800000#32
    * (mean (fun b n => root (toTarget p q b n)) + mean (fun b m => root (toSource p q b m)))

end Cert.Chamfer

end
-- ==== Proof.Payload.lean ====
/-
  The kernel body's arithmetic, read one entry at a time over the extended reals.

  For a source block `x0` (8 batches × 512 points × 3 coordinates) and a target block `x1` (8 × 3 coordinates × 256
  points) the tile entry (b, r, l) is the squared distance, by the Gram identity, between source point r and target
  point l of batch b (`tileD`). The first output block's entry (b, r) becomes the minimum of what it held and the
  minimum of row r of the tile over its 256 lanes; the second output block's entry (b, l) is the minimum of lane l
  over the 512 rows. Both minima start from +∞.
-/
import proofs.«178521_j24215025614920_2_alg».proof.Proof.Pieces
import proofs.«178521_j24215025614920_2_alg».proof.Proof.Spec
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx

namespace Cert.KernelIdeal.Body

open Cert.KernelIdeal Cert.KernelIdeal.Gen

/-- The word of +∞ denotes the top of the extended reals. -/
theorem ofBits_inf : Ideal.ofBits .f32 0x7F800000#32 = (⊤ : EReal) := by simp [Ideal.ofBits, Ideal.ieee]

/-! ## The loads: a coordinate column of the source block, a coordinate row of the target block -/

theorem sx_apply (x0 : Vec Ideal S8x512x3 .f32) (b : Fin 8) (r : Fin 512) :
    sx x0 (ix3 b r (0 : Fin 1)) = x0 (ix3 b r (0 : Fin 3)) :=
  congrArg x0 (funext fun a => Fin.ext (by
    match a with
    | ⟨0, _⟩ => show 0 + 1 * b.val = b.val; omega
    | ⟨1, _⟩ => show 0 + 1 * r.val = r.val; omega
    | ⟨2, _⟩ => show 0 + 1 * 0 = 0; omega))
theorem sy_apply (x0 : Vec Ideal S8x512x3 .f32) (b : Fin 8) (r : Fin 512) :
    sy x0 (ix3 b r (0 : Fin 1)) = x0 (ix3 b r (1 : Fin 3)) :=
  congrArg x0 (funext fun a => Fin.ext (by
    match a with
    | ⟨0, _⟩ => show 0 + 1 * b.val = b.val; omega
    | ⟨1, _⟩ => show 0 + 1 * r.val = r.val; omega
    | ⟨2, _⟩ => show 1 + 1 * 0 = 1; omega))
theorem sz_apply (x0 : Vec Ideal S8x512x3 .f32) (b : Fin 8) (r : Fin 512) :
    sz x0 (ix3 b r (0 : Fin 1)) = x0 (ix3 b r (2 : Fin 3)) :=
  congrArg x0 (funext fun a => Fin.ext (by
    match a with
    | ⟨0, _⟩ => show 0 + 1 * b.val = b.val; omega
    | ⟨1, _⟩ => show 0 + 1 * r.val = r.val; omega
    | ⟨2, _⟩ => show 2 + 1 * 0 = 2; omega))
theorem tx_apply (x1 : Vec Ideal S8x3x256 .f32) (b : Fin 8) (l : Fin 256) :
    tx x1 (ix3 b (0 : Fin 1) l) = x1 (ix3 b (0 : Fin 3) l) :=
  congrArg x1 (funext fun a => Fin.ext (by
    match a with
    | ⟨0, _⟩ => show 0 + 1 * b.val = b.val; omega
    | ⟨1, _⟩ => show 0 + 1 * 0 = 0; omega
    | ⟨2, _⟩ => show 0 + 1 * l.val = l.val; omega))
theorem ty_apply (x1 : Vec Ideal S8x3x256 .f32) (b : Fin 8) (l : Fin 256) :
    ty x1 (ix3 b (0 : Fin 1) l) = x1 (ix3 b (1 : Fin 3) l) :=
  congrArg x1 (funext fun a => Fin.ext (by
    match a with
    | ⟨0, _⟩ => show 0 + 1 * b.val = b.val; omega
    | ⟨1, _⟩ => show 1 + 1 * 0 = 1; omega
    | ⟨2, _⟩ => show 0 + 1 * l.val = l.val; omega))
theorem tz_apply (x1 : Vec Ideal S8x3x256 .f32) (b : Fin 8) (l : Fin 256) :
    tz x1 (ix3 b (0 : Fin 1) l) = x1 (ix3 b (2 : Fin 3) l) :=
  congrArg x1 (funext fun a => Fin.ext (by
    match a with
    | ⟨0, _⟩ => show 0 + 1 * b.val = b.val; omega
    | ⟨1, _⟩ => show 2 + 1 * 0 = 2; omega
    | ⟨2, _⟩ => show 0 + 1 * l.val = l.val; omega))

/-! ## The layout operations of the body at an entry -/

section Layout
variable {α : Type}

/-- A column [8,512,1] repeated along 256 lanes holds at (b, r, l) the column's entry (b, r). -/
theorem bcast_col (v : S8x512x1.Idx → α) (h : S8x512x1.Broadcasts S8x512x256) (b : Fin 8) (r : Fin 512) (l : Fin 256) :
    broadcastTo S8x512x256 v h (ix3 b r l) = v (ix3 b r (0 : Fin 1)) :=
  broadcastTo_apply v h _ _ (fun a => match a with
    | ⟨0, _⟩ => by show b.val = if (8 : Nat) = 1 then 0 else b.val; rw [if_neg (by decide)]
    | ⟨1, _⟩ => by show r.val = if (512 : Nat) = 1 then 0 else r.val; rw [if_neg (by decide)]
    | ⟨2, _⟩ => by show 0 = if (1 : Nat) = 1 then 0 else l.val; rw [if_pos rfl])

/-- A row [8,1,256] repeated along 512 rows holds at (b, r, l) the row's entry (b, l). -/
theorem bcast_row (v : S8x1x256.Idx → α) (h : S8x1x256.Broadcasts S8x512x256) (b : Fin 8) (r : Fin 512) (l : Fin 256) :
    broadcastTo S8x512x256 v h (ix3 b r l) = v (ix3 b (0 : Fin 1) l) :=
  broadcastTo_apply v h _ _ (fun a => match a with
    | ⟨0, _⟩ => by show b.val = if (8 : Nat) = 1 then 0 else b.val; rw [if_neg (by decide)]
    | ⟨1, _⟩ => by show 0 = if (1 : Nat) = 1 then 0 else r.val; rw [if_pos rfl]
    | ⟨2, _⟩ => by show l.val = if (256 : Nat) = 1 then 0 else l.val; rw [if_neg (by decide)])

/-- A table [8,512] given a trailing unit axis holds at (b, r, 0) the table's entry (b, r). -/
theorem cast_col (v : S8x512.Idx → α) (h : S8x512.ShapeCasts S8x512x1) (b : Fin 8) (r : Fin 512) :
    shapeCast S8x512x1 v h (ix3 b r (0 : Fin 1)) = v (ix2 b r) :=
  shapeCast_apply v h _ _ (by
    rw [Shape.rowMajor_val_two, Shape.rowMajor_val_three]
    show b.val * 512 + r.val = (b.val * 512 + r.val) * 1 + 0
    omega)

/-- A table [8,256] given a middle unit axis holds at (b, 0, l) the table's entry (b, l). -/
theorem cast_row (v : S8x256.Idx → α) (h : S8x256.ShapeCasts S8x1x256) (b : Fin 8) (l : Fin 256) :
    shapeCast S8x1x256 v h (ix3 b (0 : Fin 1) l) = v (ix2 b l) :=
  shapeCast_apply v h _ _ (by
    rw [Shape.rowMajor_val_two, Shape.rowMajor_val_three]
    show b.val * 256 + l.val = (b.val * 1 + 0) * 256 + l.val
    omega)

end Layout

/-! ## The two minima of the body -/

/-- The minimum along the lanes, from +∞: entry (b, r) is the minimum over l of the tile's (b, r, l). -/
theorem minOverLanes (src : FVec Ideal S8x512x256 .f32) (h : S8x512x256.Reduces [2] S8x512) (hφ : FKind.Formats .f32)
    (hacc : (0x7F800000#32 : BitVec FTy.f32.bits) = FKind.minimumf.neutral .f32 hφ) (b : Fin 8) (r : Fin 512) :
    multiReduction .minimumf [2] S8x512 src 0x7F800000#32 h hφ hacc (ix2 b r)
      = (Finset.univ : Finset (Fin 256)).fold min ⊤ (fun l => src (ix3 b r l)) := by
  rw [multiReduction_minimumf_eq_fold]
  refine (h.fold_filter_drop_single _ _ src (ix2 b r)).trans ?_
  have hf : (src ∘ h.lift (ix2 b r)) = fun l : Fin 256 => src (ix3 b r l) :=
    funext fun k => congrArg src (funext fun c => Fin.ext (by fin_cases c <;> rfl))
  show Finset.fold min (Ideal.ofBits .f32 0x7F800000#32) (src ∘ h.lift (ix2 b r)) (Finset.univ : Finset (Fin 256)) = _
  rw [hf, ofBits_inf]
  rfl

/-- The minimum along the rows, from +∞: entry (b, l) is the minimum over r of the tile's (b, r, l). -/
theorem minOverRows (src : FVec Ideal S8x512x256 .f32) (h : S8x512x256.Reduces [1] S8x256) (hφ : FKind.Formats .f32)
    (hacc : (0x7F800000#32 : BitVec FTy.f32.bits) = FKind.minimumf.neutral .f32 hφ) (b : Fin 8) (l : Fin 256) :
    multiReduction .minimumf [1] S8x256 src 0x7F800000#32 h hφ hacc (ix2 b l)
      = (Finset.univ : Finset (Fin 512)).fold min ⊤ (fun r => src (ix3 b r l)) := by
  rw [multiReduction_minimumf_eq_fold]
  refine (h.fold_filter_drop_single _ _ src (ix2 b l)).trans ?_
  have hf : (src ∘ h.lift (ix2 b l)) = fun r : Fin 512 => src (ix3 b r l) :=
    funext fun k => congrArg src (funext fun c => Fin.ext (by fin_cases c <;> rfl))
  show Finset.fold min (Ideal.ofBits .f32 0x7F800000#32) (src ∘ h.lift (ix2 b l)) (Finset.univ : Finset (Fin 512)) = _
  rw [hf, ofBits_inf]
  rfl

/-! ## The tile and the two stores -/

/-- The squared distance, by the Gram identity, of source point r and target point l of batch b within a tile. -/
def tileD (x0 : Vec Ideal S8x512x3 .f32) (x1 : Vec Ideal S8x3x256 .f32) (b : Fin 8) (r : Fin 512) (l : Fin 256) : EReal :=
  (((x0 (ix3 b r (0 : Fin 3)) * x0 (ix3 b r (0 : Fin 3)) + x0 (ix3 b r (1 : Fin 3)) * x0 (ix3 b r (1 : Fin 3)))
      + x0 (ix3 b r (2 : Fin 3)) * x0 (ix3 b r (2 : Fin 3)))
    + ((x1 (ix3 b (0 : Fin 3) l) * x1 (ix3 b (0 : Fin 3) l) + x1 (ix3 b (1 : Fin 3) l) * x1 (ix3 b (1 : Fin 3) l))
      + x1 (ix3 b (2 : Fin 3) l) * x1 (ix3 b (2 : Fin 3) l)))
  - Cert.Chamfer.two
    * ((x0 (ix3 b r (0 : Fin 3)) * x1 (ix3 b (0 : Fin 3) l) + x0 (ix3 b r (1 : Fin 3)) * x1 (ix3 b (1 : Fin 3) l))
      + x0 (ix3 b r (2 : Fin 3)) * x1 (ix3 b (2 : Fin 3) l))

/-- The tile the body forms is `tileD`, entry by entry. -/
theorem tile_apply (x0 : Vec Ideal S8x512x3 .f32) (x1 : Vec Ideal S8x3x256 .f32) (b : Fin 8) (r : Fin 512) (l : Fin 256) :
    k0_pay1 (cross x0 x1) (norms x0 x1) twoW (ix3 b r l) = tileD x0 x1 b r l := by
  unfold k0_pay1 cross norms k0_pay8 k0_pay9 k0_pay5 k0_pay6 k0_pay7 tileD Cert.Chamfer.two twoW
  simp only [subf_apply, mulf_apply, addf_apply, broadcast_apply, bcast_col, bcast_row, shapeCast_self,
    sx_apply, sy_apply, sz_apply, tx_apply, ty_apply, tz_apply]
  rfl

/-- The +∞ block the first output block is reset to. -/
theorem reset_apply (i : S8x512x1.Idx) : k0_pay4 (F := Ideal) i = (⊤ : EReal) := ofBits_inf

/-- The first output block after a step: entry (b, r) is the minimum of what it held and the row's minimum. -/
theorem stepMin_apply (x0 : Vec Ideal S8x512x3 .f32) (x1 : Vec Ideal S8x3x256 .f32) (xo : Vec Ideal S8x512x1 .f32)
    (b : Fin 8) (r : Fin 512) :
    stepMin x0 x1 xo (ix3 b r (0 : Fin 1))
      = min (xo (ix3 b r (0 : Fin 1))) ((Finset.univ : Finset (Fin 256)).fold min ⊤ fun l => tileD x0 x1 b r l) := by
  show k0_pay2 (cross x0 x1) (norms x0 x1) twoW xo (ix3 b r (0 : Fin 1)) = _
  unfold k0_pay2
  dsimp only
  refine (minimumf_apply _ _ _).trans ?_
  refine congrArg₂ min ?_ ?_
  · exact congrFun (shapeCast_self xo _) _
  · refine (cast_col _ _ b r).trans ?_
    refine (minOverLanes _ _ _ _ b r).trans ?_
    exact congrArg (fun f => Finset.fold min ⊤ f (Finset.univ : Finset (Fin 256))) (funext fun l => tile_apply x0 x1 b r l)

/-- The second output block after a step: entry (b, l) is the lane's minimum over the 512 rows. -/
theorem tileMin_apply (x0 : Vec Ideal S8x512x3 .f32) (x1 : Vec Ideal S8x3x256 .f32) (b : Fin 8) (l : Fin 256) :
    tileMin x0 x1 (ix4 (0 : Fin 1) b (0 : Fin 1) l)
      = (Finset.univ : Finset (Fin 512)).fold min ⊤ fun r => tileD x0 x1 b r l := by
  show k0_pay3 (cross x0 x1) (norms x0 x1) twoW (ix4 (0 : Fin 1) b (0 : Fin 1) l) = _
  unfold k0_pay3
  dsimp only
  refine (shapeCast_abc_1abc_apply _ _ (0 : Fin 1) b (0 : Fin 1) l).trans ?_
  refine (cast_row _ _ b l).trans ?_
  refine (minOverRows _ _ _ _ b l).trans ?_
  exact congrArg (fun f => Finset.fold min ⊤ f (Finset.univ : Finset (Fin 512))) (funext fun r => tile_apply x0 x1 b r l)

end Cert.KernelIdeal.Body

end
-- ==== Proof.Grid.lean ====
/-
  The grid of the kernel: 128 points in row-major order over 8 source tiles × 16 target tiles. Point n works on source
  tile n / 16 (512 source points) and target tile n % 16 (256 target points).
-/
import proofs.«178521_j24215025614920_2_alg».proof.Proof.Spec

namespace Cert.Chamfer

/-- The source tile of grid point n. -/
def ptRow (n : ℕ) : Fin 8 := ⟨n / 16 % 8, Nat.mod_lt _ (by decide)⟩

/-- The target tile of grid point n. -/
def ptCol (n : ℕ) : Fin 16 := ⟨n % 16, Nat.mod_lt _ (by decide)⟩

theorem ptRow_val {n : ℕ} (h : n < 128) : (ptRow n).val = n / 16 := by
  show n / 16 % 8 = n / 16
  omega

theorem ptCol_val (n : ℕ) : (ptCol n).val = n % 16 := rfl

theorem row_val (t : Fin 8) (r : Fin 512) : (row t r).val = 512 * t.val + r.val := rfl

theorem col_val (j : Fin 16) (l : Fin 256) : (col j l).val = 256 * j.val + l.val := rfl

end Cert.Chamfer
-- ==== Proof.Chain.lean ====
/-
  The running minimum across the grid.

  Grid point n works on source tile n / 16 and target tile n % 16. The first output block is carried from point to
  point along a row of the grid (reset to +∞ at the row's first point), so after point n its entry (b, r) is the
  minimum of the squared distances from source point r of the tile to the first 256 · (n % 16 + 1) target points.
  This is proved through lower bounds: z is below the entry exactly when z is below each of those distances — the
  form that survives the induction over the points without naming the minimum. The second output block is not
  carried: after point n its entry (b, l) is the minimum over the tile's 512 source points.
-/
import proofs.«178521_j24215025614920_2_alg».proof.Proof.Payload
import proofs.«178521_j24215025614920_2_alg».proof.Proof.Grid

set_option maxRecDepth 16384

noncomputable section

open Idealize.ShloMosaic Idealize.ShloMosaic.TcCoe Idealize.ShloMosaic.ValueIdx Idealize.SL.Sem

namespace Cert.KernelIdeal.Body

open Cert.KernelIdeal Cert.KernelIdeal.Gen Cert.Chamfer

/-- The lower bounds of the first output block's entry after a step: those of what it held that are below the whole
    row of the tile. -/
theorem le_stepMin (X0 : Vec Ideal S8x512x3 .f32) (X1 : Vec Ideal S8x3x256 .f32) (xo : Vec Ideal S8x512x1 .f32)
    (b : Fin 8) (r : Fin 512) (z : EReal) :
    z ≤ stepMin X0 X1 xo (ix3 b r (0 : Fin 1))
      ↔ z ≤ xo (ix3 b r (0 : Fin 1)) ∧ ∀ l : Fin 256, z ≤ tileD X0 X1 b r l := by
  rw [stepMin_apply, le_min_iff, Finset.le_fold_min]
  simp only [Finset.mem_univ, true_implies, le_top, true_and]

/-- Target points below 256 · (j + 1) are those below 256 · j together with lane l of tile j, l < 256. -/
theorem upto_succ (f : Fin 4096 → EReal) (z : EReal) (n : ℕ) :
    ((∀ mm : Fin 4096, mm.val < 256 * (n % 16) → z ≤ f mm) ∧ ∀ l : Fin 256, z ≤ f (col (ptCol n) l))
      ↔ ∀ mm : Fin 4096, mm.val < 256 * (n % 16 + 1) → z ≤ f mm := by
  constructor
  · rintro ⟨hlo, hl⟩ mm hmm
    by_cases hc : mm.val < 256 * (n % 16)
    · exact hlo mm hc
    · have e : mm = col (ptCol n) ⟨mm.val - 256 * (n % 16), by omega⟩ :=
        Fin.ext (by rw [col_val, ptCol_val]; show mm.val = 256 * (n % 16) + (mm.val - 256 * (n % 16)); omega)
      rw [e]; exact hl _
  · intro h
    refine ⟨fun mm hmm => h mm (by omega), fun l => h _ ?_⟩
    rw [col_val, ptCol_val]
    have := l.isLt
    omega

variable (m : (ℓ : Loc nD τ sig) → Buf (Elt Ideal) ℓ)

/-- THE RUNNING MINIMUM. Given that the tile at point t is the squared distances between source tile t / 16 and
    target tile t % 16 of the clouds p, q (`hT`), after point n the first output block's entry (b, r) has exactly the
    lower bounds of the distances from source point (n / 16, r) to the target points below 256 · (n % 16 + 1). -/
theorem run_min (c : Dev nD) (p q : Cloud)
    (hT : ∀ (t : Fin cfg0.N) (b : Fin 8) (r : Fin 512) (l : Fin 256),
        tileD (iblk m c 0 t) (iblk m c 1 t) b r l = d2 p q b (row (ptRow t.val) r) (col (ptCol t.val) l)) :
    ∀ (n : ℕ) (h : n < cfg0.N) (b : Fin 8) (r : Fin 512) (z : EReal),
      z ≤ (outsAt0 m c n h).1 (ix3 b r (0 : Fin 1))
        ↔ ∀ mm : Fin 4096, mm.val < 256 * (n % 16 + 1) → z ≤ d2 p q b (row (ptRow n) r) mm
  | 0, h, b, r, z => by
    rw [outsAt0_A m c ⟨0, h⟩ rfl]
    dsimp only
    rw [out_A_2, le_stepMin, reset_apply, ← upto_succ]
    simp only [hT, le_top, true_and]
    exact ⟨fun hl => ⟨fun mm hmm => absurd hmm (by simp), hl⟩, fun hh => hh.2⟩
  | n + 1, h, b, r, z => by
    have hN : n + 1 < 128 := lt_of_lt_of_eq h (show cfg0.N = 128 from N_0)
    by_cases h0 : (n + 1) % 16 = 0
    · rw [outsAt0_A m c ⟨n + 1, h⟩ h0]
      dsimp only
      rw [out_A_2, le_stepMin, reset_apply, ← upto_succ]
      simp only [hT, le_top, true_and]
      exact ⟨fun hl => ⟨fun mm hmm => absurd hmm (by rw [h0]; simp), hl⟩, fun hh => hh.2⟩
    · rw [outsAt0_B m c ⟨n + 1, h⟩ h0]
      dsimp only
      rw [out_B_2, le_stepMin, ← upto_succ]
      have ih := run_min c p q hT n (Nat.lt_of_succ_lt h) b r z
      have hrow : ptRow (n + 1) = ptRow n := Fin.ext (by show (n + 1) / 16 % 8 = n / 16 % 8; omega)
      have hcol : (n + 1) % 16 = n % 16 + 1 := by omega
      simp only [hT]
      show z ≤ (outsAt0 m c n _).1 (ix3 b r (0 : Fin 1)) ∧ _ ↔ _
      rw [ih, hrow, hcol]

/-- The second output block after point n: entry (b, l) is the minimum over the 512 source points of tile n / 16 of
    the squared distance to target point (n % 16, l). -/
theorem tile_min (c : Dev nD) (p q : Cloud)
    (hT : ∀ (t : Fin cfg0.N) (b : Fin 8) (r : Fin 512) (l : Fin 256),
        tileD (iblk m c 0 t) (iblk m c 1 t) b r l = d2 p q b (row (ptRow t.val) r) (col (ptCol t.val) l))
    (t : Fin cfg0.N) (b : Fin 8) (l : Fin 256) :
    (outsAt0 m c t.val t.isLt).2 (ix4 (0 : Fin 1) b (0 : Fin 1) l)
      = (Finset.univ : Finset (Fin 512)).fold min ⊤ fun r => d2 p q b (row (ptRow t.val) r) (col (ptCol t.val) l) := by
  by_cases h0 : t.val % 16 = 0
  · rw [outsAt0_A m c t h0]
    dsimp only
    rw [out_A_3, tileMin_apply]
    exact congrArg (fun f => Finset.fold min ⊤ f (Finset.univ : Finset (Fin 512))) (funext fun r => hT t b r l)
  · rw [outsAt0_B m c t h0]
    dsimp only
    rw [out_B_3, tileMin_apply]
    exact congrArg (fun f => Finset.fold min ⊤ f (Finset.univ : Finset (Fin 512))) (funext fun r => hT t b r l)

end Cert.KernelIdeal.Body

end
-- ==== Proof.BlockIndex.lean ====
/-
  The index arithmetic of the kernel's four windows. The grid has 128 points in row-major order over 8 source tiles
  and 16 target tiles: point t works on source tile t / 16 and target tile t mod 16. A window's block at point t sits
  in its array at (block index) × (block extent) on every axis, so entry j of the block is the array's entry
  (block index) × (block extent) + j. Window 0 (the source cloud) and window 2 (the per-source minima) move with the
  source tile along axis 1 in steps of 512; window 1 (the target cloud, transposed by the host beforehand) moves with
  the target tile along axis 2 in steps of 256; window 3 (the per-tile minima over sources) moves with the source tile
  along axis 0 in steps of 1 and with the target tile along axis 3 in steps of 256. The blocks of window 2 that are
  written back (at the last target tile of each source tile) and those of window 3 (written back at every point)
  cover their arrays.
-/
import proofs.«178521_j24215025614920_2_alg».proof.Proof.Grid
import proofs.«178521_j24215025614920_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.Chamfer

variable {F : FTy → Type} [FloatOps F] (m : (ℓ : Loc nD τ sig) → Buf (Elt F) ℓ)

/-! ## The block indices in closed form -/

/-- The grid has 128 points. -/
theorem lt_N (t : Fin cfg0.N) : t.val < 128 := lt_of_lt_of_eq t.isLt (show cfg0.N = 128 from N_0)

/-- The four index maps at point t, decided over the grid: the source tile is t / 16, the target tile t mod 16. -/
theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = 0 ∧ win0_1.index t (2 : Fin 3) = t.val % 16
    ∧ win0_2.index t (0 : Fin 3) = 0 ∧ win0_2.index t (1 : Fin 3) = t.val / 16 ∧ win0_2.index t (2 : Fin 3) = 0
    ∧ win0_3.index t (0 : Fin 4) = t.val / 16 ∧ win0_3.index t (1 : Fin 4) = 0 ∧ win0_3.index t (2 : Fin 4) = 0
    ∧ win0_3.index t (3 : Fin 4) = t.val % 16 :=
  (by decide +kernel : ∀ t : Fin grid0.N, _)

/-! ## A block's entry in its array -/

/-- Entry (b, r, k) of window 0's block at point t is entry (b, 512·(t / 16) + r, k) of the source cloud. -/
theorem emb0 (t : Fin cfg0.N) (b : Fin 8) (r : Fin 512) (k : Fin 3) :
    ((cfg0.win 0).blk t).view.emb (ix3 b r k) = ix3 b (row (ptRow t.val) r) k := by
  have hN := lt_N t
  obtain ⟨e0, e1, e2, -⟩ := idx_facts t
  funext a; apply Fin.ext
  match a with
  | ⟨0, _⟩ => show win0_0.index t (0 : Fin 3) * 8 + 1 * b.val = b.val; omega
  | ⟨1, _⟩ =>
    show win0_0.index t (1 : Fin 3) * 512 + 1 * r.val = 512 * (ptRow t.val).val + r.val
    rw [ptRow_val hN]; omega
  | ⟨2, _⟩ => show win0_0.index t (2 : Fin 3) * 3 + 1 * k.val = k.val; omega

/-- Entry (b, k, l) of window 1's block at point t is entry (b, k, 256·(t mod 16) + l) of the transposed target cloud. -/
theorem emb1 (t : Fin cfg0.N) (b : Fin 8) (k : Fin 3) (l : Fin 256) :
    ((cfg0.win 1).blk t).view.emb (ix3 b k l) = ix3 b k (col (ptCol t.val) l) := by
  have hN := lt_N t
  obtain ⟨-, -, -, e0, e1, e2, -⟩ := idx_facts t
  funext a; apply Fin.ext
  match a with
  | ⟨0, _⟩ => show win0_1.index t (0 : Fin 3) * 8 + 1 * b.val = b.val; omega
  | ⟨1, _⟩ => show win0_1.index t (1 : Fin 3) * 3 + 1 * k.val = k.val; omega
  | ⟨2, _⟩ =>
    show win0_1.index t (2 : Fin 3) * 256 + 1 * l.val = 256 * (ptCol t.val).val + l.val
    rw [ptCol_val]; omega

/-- Entry (b, r, 0) of window 2's block at point t is entry (b, 512·(t / 16) + r, 0) of the first result array. -/
theorem emb2 (t : Fin cfg0.N) (b : Fin 8) (r : Fin 512) :
    ((cfg0.win 2).blk t).view.emb (ix3 b r (0 : Fin 1)) = ix3 b (row (ptRow t.val) r) (0 : Fin 1) := by
  have hN := lt_N t
  obtain ⟨-, -, -, -, -, -, e0, e1, e2, -⟩ := idx_facts t
  funext a; apply Fin.ext
  match a with
  | ⟨0, _⟩ => show win0_2.index t (0 : Fin 3) * 8 + 1 * b.val = b.val; omega
  | ⟨1, _⟩ =>
    show win0_2.index t (1 : Fin 3) * 512 + 1 * r.val = 512 * (ptRow t.val).val + r.val
    rw [ptRow_val hN]; omega
  | ⟨2, _⟩ => show win0_2.index t (2 : Fin 3) * 1 + 1 * 0 = 0; omega

/-- Entry (0, b, 0, l) of window 3's block at point t is entry (t / 16, b, 0, 256·(t mod 16) + l) of the second result
    array. -/
theorem emb3 (t : Fin cfg0.N) (b : Fin 8) (l : Fin 256) :
    ((cfg0.win 3).blk t).view.emb (ix4 (0 : Fin 1) b (0 : Fin 1) l)
      = ix4 (ptRow t.val) b (0 : Fin 1) (col (ptCol t.val) l) := by
  have hN := lt_N t
  obtain ⟨-, -, -, -, -, -, -, -, -, e0, e1, e2, e3⟩ := idx_facts t
  funext a; apply Fin.ext
  match a with
  | ⟨0, _⟩ =>
    show win0_3.index t (0 : Fin 4) * 1 + 1 * 0 = (ptRow t.val).val
    rw [ptRow_val hN]; omega
  | ⟨1, _⟩ => show win0_3.index t (1 : Fin 4) * 8 + 1 * b.val = b.val; omega
  | ⟨2, _⟩ => show win0_3.index t (2 : Fin 4) * 1 + 1 * 0 = 0; omega
  | ⟨3, _⟩ =>
    show win0_3.index t (3 : Fin 4) * 256 + 1 * l.val = 256 * (ptCol t.val).val + l.val
    rw [ptCol_val]; omega

/-! ## The input blocks read off the arrays the region finds -/

/-- The array window 1 reads is the host's transpose of the target cloud (its last two axes swapped). -/
theorem V_main_v0 (c : Dev nD) :
    (V m c main_v0 : S8x3x4096.Idx → Elt F .f32)
      = transpose S8x3x4096 [0, 2, 1] (m ((c : Thread nD τ).loc main_arg1)) transposes_S8x4096x3_S8x3x4096_0_2_1 := by
  show StableHlo.after hostOps0 (fun b => m (c, b)) (Proc.devRef .tc main_v0) = _
  after_results

/-- Window 0's block at point t holds the source points of tile t / 16: entry (b, r, k) is coordinate k of source
    point 512·(t / 16) + r of batch b. -/
theorem iblk0_apply (c : Dev nD) (t : Fin cfg0.N) (b : Fin 8) (r : Fin 512) (k : Fin 3) :
    (iblk m c 0 t : Vec F S8x512x3 .f32) (ix3 b r k)
      = m ((c : Thread nD τ).loc main_arg0) (ix3 b (row (ptRow t.val) r) k) := by
  unfold iblk
  rw [View.read_apply]
  show V m c main_arg0 (((cfg0.win 0).blk t).view.emb (ix3 b r k)) = _
  rw [V_main_arg0, emb0]

/-- Window 1's block at point t holds the target points of tile t mod 16, coordinates before points: entry (b, k, l)
    is coordinate k of target point 256·(t mod 16) + l of batch b. -/
theorem iblk1_apply (c : Dev nD) (t : Fin cfg0.N) (b : Fin 8) (k : Fin 3) (l : Fin 256) :
    (iblk m c 1 t : Vec F S8x3x256 .f32) (ix3 b k l)
      = m ((c : Thread nD τ).loc main_arg1) (ix3 b (col (ptCol t.val) l) k) := by
  unfold iblk
  rw [View.read_apply]
  show (V m c main_v0 : S8x3x4096.Idx → Elt F .f32) (((cfg0.win 1).blk t).view.emb (ix3 b k l)) = _
  rw [V_main_v0, emb1]
  exact transpose_ix3_021_apply _ _ b k (col (ptCol t.val) l)

/-! ## The blocks written back cover the result arrays -/

/-- An index of the first result array is in window 2's block at point t iff each coordinate is in the block's range. -/
theorem mem_blk2 (t : Fin cfg0.N) (i : S8x4096x1.Idx) :
    i ∈ ((cfg0.win 2).blk t).view.set ↔ ∀ a : Fin 3, win0_2.index t a * S8x512x1.size a ≤ (i a).val
      ∧ (i a).val < win0_2.index t a * S8x512x1.size a + S8x512x1.size a := by
  show i ∈ ((View.whole main_v1_0).slice (win0_2.rect t)).set ↔ _
  rw [View.set_slice_whole, Rect.mem_set_unit]
  exact Iff.rfl

/-- An index of the second result array is in window 3's block at point t iff each coordinate is in the block's range. -/
theorem mem_blk3 (t : Fin cfg0.N) (i : S8x8x1x4096.Idx) :
    i ∈ ((cfg0.win 3).blk t).view.set ↔ ∀ a : Fin 4, win0_3.index t a * S1x8x1x256.size a ≤ (i a).val
      ∧ (i a).val < win0_3.index t a * S1x8x1x256.size a + S1x8x1x256.size a := by
  show i ∈ ((View.whole main_v1_1).slice (win0_3.rect t)).set ↔ _
  rw [View.set_slice_whole, Rect.mem_set_unit]
  exact Iff.rfl

/-- Every entry (b, n, 0) of the first result array is in a block that is written back: that of the last point of
    source tile n / 512, point 16·(n / 512) + 15. -/
theorem cover2 (i : S8x4096x1.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 1 := (i 2).isLt
  obtain ⟨t, htv⟩ : ∃ t : Fin cfg0.N, t.val = 16 * ((i 1).val / 512) + 15 :=
    ⟨⟨16 * ((i 1).val / 512) + 15, lt_of_lt_of_eq (by omega : _ < 128) (show cfg0.N = 128 from N_0).symm⟩, rfl⟩
  obtain ⟨-, -, -, -, -, -, e0, e1, e2, -⟩ := idx_facts t
  refine ⟨t, (flush0_2 t).2 (by omega), ?_⟩
  rw [mem_blk2]
  intro a
  match a with
  | ⟨0, _⟩ =>
    show win0_2.index t (0 : Fin 3) * 8 ≤ (i 0).val ∧ (i 0).val < win0_2.index t (0 : Fin 3) * 8 + 8
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 1 ≤ (i 2).val ∧ (i 2).val < win0_2.index t (2 : Fin 3) * 1 + 1
    omega

/-- Every entry (s, b, 0, n) of the second result array is in a block that is written back: that of point
    16·s + n / 256 (every point writes window 3 back). -/
theorem cover3 (i : S8x8x1x4096.Idx) :
    ∃ t : Fin cfg0.N, (cfg0.win 3).flush t = true ∧ i ∈ ((cfg0.win 3).blk t).view.set := by
  have h0 : (i 0).val < 8 := (i 0).isLt
  have h1 : (i 1).val < 8 := (i 1).isLt
  have h2 : (i 2).val < 1 := (i 2).isLt
  have h3 : (i 3).val < 4096 := (i 3).isLt
  obtain ⟨t, htv⟩ : ∃ t : Fin cfg0.N, t.val = 16 * (i 0).val + (i 3).val / 256 :=
    ⟨⟨16 * (i 0).val + (i 3).val / 256, lt_of_lt_of_eq (by omega : _ < 128) (show cfg0.N = 128 from N_0).symm⟩, rfl⟩
  obtain ⟨-, -, -, -, -, -, -, -, -, e0, e1, e2, e3⟩ := idx_facts t
  refine ⟨t, flush0_3 t, ?_⟩
  rw [mem_blk3]
  intro a
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 8 ≤ (i 1).val ∧ (i 1).val < win0_3.index t (1 : Fin 4) * 8 + 8
    omega
  | ⟨2, _⟩ =>
    show win0_3.index t (2 : Fin 4) * 1 ≤ (i 2).val ∧ (i 2).val < win0_3.index t (2 : Fin 4) * 1 + 1
    omega
  | ⟨3, _⟩ =>
    show win0_3.index t (3 : Fin 4) * 256 ≤ (i 3).val ∧ (i 3).val < win0_3.index t (3 : Fin 4) * 256 + 256
    omega

end Cert.KernelIdeal.Blocks

end
-- ==== Proof.HostTailDef.lean ====
/-
  What the host computes after the kernel: from the kernel's two result arrays — `o1`, entry (b, n, 0) the running
  minimum over all targets of the squared distance from source point n, and `o2`, entry (t, b, 0, m) the minimum over
  the 512 source points of tile t of the squared distance to target point m — the unit axes are dropped, `o2` is
  minimized over its 8 tiles, both tables are clamped at zero and rooted, each is averaged over its 32768 entries,
  and the two means are added and multiplied by one. Stated once, as one function of the two arrays, at any float
  instance.
-/
import proofs.«178521_j24215025614920_2_alg».proof.KernelIdeal

noncomputable section

namespace Cert.KernelIdeal.HostTail

open Idealize.ShloMosaic Cert.KernelIdeal
open Cert.KernelIdeal.Facts₀

variable {F : FTy → Type} [FloatOps F] [Cert.KernelIdeal.Facts]

/-- The host lines after the region, as one function of the region's two result arrays. -/
def tail (o1 : (⟨S8x4096x1, .f32⟩ : BufTy).Contents (Elt F)) (o2 : (⟨S8x8x1x4096, .f32⟩ : BufTy).Contents (Elt F)) :
    (⟨S_, .f32⟩ : BufTy).Contents (Elt F) :=
  mulf (constant S_ .f32 0x3F800000#32)
    (addf
      (Host.divf
        (Host.reduceAdd
          (Host.sqrt (maximumf (shapeCast S8x4096 o1 shapeCasts_S8x4096x1_S8x4096)
            (broadcastInDim S8x4096 ![] bcast_S_S8x4096 (constant S_ .f32 0x00000000#32))))
          (constant S_ .f32 0x00000000#32) reducesTo_S8x4096_S_d0_1 h_S_)
        (constant S_ .f32 0x47000000#32))
      (Host.divf
        (Host.reduceAdd
          (Host.sqrt (maximumf
            (Host.reduce FloatOps.minimumf (shapeCast S8x8x4096 o2 shapeCasts_S8x8x1x4096_S8x8x4096)
              (constant S_ .f32 0x7F800000#32) reducesTo_S8x8x4096_S8x4096_d0 h_S_)
            (broadcastInDim S8x4096 ![] bcast_S_S8x4096 (constant S_ .f32 0x00000000#32))))
          (constant S_ .f32 0x00000000#32) reducesTo_S8x4096_S_d0_1 h_S_)
        (constant S_ .f32 0x47000000#32)))

end Cert.KernelIdeal.HostTail

end
-- ==== Proof.HostTail.lean ====
/-
  The host lines after the kernel, read as mathematics. The kernel hands back two tables of squared distances:
  for every source point its minimum over all targets, and for every target point, tile by tile, its minimum over
  the 512 source points of the tile. The host drops the unit axes, takes the minimum over the 8 tiles, clamps at zero,
  roots, averages each table over its 32768 entries, adds the two means and multiplies by one. A minimum over 8 tiles
  of minima over 512 rows is the minimum over all 4096 points, because every point n is row (n mod 512) of tile
  (n div 512); so the result is the Chamfer loss.
-/
import proofs.«178521_j24215025614920_2_alg».proof.Proof.Spec
import proofs.«178521_j24215025614920_2_alg».proof.Proof.HostTailDef
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostTail

open Idealize.ShloMosaic Idealize.ShloMosaic.ValueIdx Cert.KernelIdeal
open Cert.KernelIdeal.Facts₀

/-! ## The two reshapes: a unit axis dropped -/

/-- An [a, b, 1] array cast to [a, b] reads, at (i, j), the operand at (i, j, 0). -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An [m, a, 1, b] array cast to [m, a, b] reads, at (k, i, j), the operand at (k, i, 0, j). -/
theorem shapeCast_ab1c_abc_apply {α : Type} {m a b : ℕ} (x : (⟨4, ![m, a, 1, b]⟩ : Shape).Idx → α)
    (h : (⟨4, ![m, a, 1, b]⟩ : Shape).ShapeCasts ⟨3, ![m, a, b]⟩) (k : Fin m) (i : Fin a) (j : Fin b) :
    shapeCast ⟨3, ![m, a, b]⟩ x h (ix3 k i j) = x (ix4 k i (0 : Fin 1) j) :=
  shapeCast_apply x h _ _ (by
    rw [Shape.rowMajor_val_four, Shape.rowMajor_val_three]
    show ((k.val * a + i.val) * 1 + 0) * b + j.val = (k.val * a + i.val) * b + j.val
    rw [Nat.mul_one, Nat.add_zero])

/-! ## The minimum over the 8 tiles -/

/-- The reduced index (b, m) with tile t put back on the leading axis is (t, b, m). -/
theorem lift_ix3 (h : S8x8x4096.Reduces [0] S8x4096) (b : Fin 8) (m : Fin 4096) (t : Fin (S8x8x4096.size 0)) :
    h.lift (ix2 b m) t = ix3 (⟨t.val, t.isLt⟩ : Fin 8) b m := by
  funext c; apply Fin.ext
  fin_cases c <;> rfl

/-- From +∞ the host's reduce with a minimum body over the leading axis is, at (b, m), the minimum over the 8 tiles. -/
theorem reduceMin_tiles_apply (x : FVec Ideal S8x8x4096 .f32) (h' : S8x8x4096.ReducesTo [0] S8x4096)
    (hu : 0 < S_.numel) (b : Fin 8) (m : Fin 4096) :
    Host.reduce FloatOps.minimumf x (constant (F := Ideal) S_ .f32 0x7F800000#32) h' hu (ix2 b m)
      = (Finset.univ : Finset (Fin 8)).fold min ⊤ fun t => x (ix3 t b m) := by
  have h : S8x8x4096.Reduces [0] S8x4096 := by decide
  rw [Host.reduce_eq_fold_single FloatOps.minimumf x _ h' h hu]
  have htop : constant (F := Ideal) S_ .f32 0x7F800000#32 (Shape.Idx.first hu) = (⊤ : EReal) := by
    show Ideal.ofBits .f32 0x7F800000#32 = ⊤
    simp [Ideal.ofBits, Ideal.ieee]
  rw [htop]
  have hf : (x ∘ h.lift (ix2 b m)) = fun t : Fin 8 => x (ix3 t b m) :=
    funext fun t => congrArg x (lift_ix3 h b m t)
  exact congrArg (fun f => Finset.fold min (⊤ : EReal) f (Finset.univ : Finset (Fin 8))) hf

/-! ## The mathematics: tiles of rows exhaust the points -/

/-- The minimum over the 8 tiles of the minimum over a tile's 512 rows is the minimum over all 4096 points: both have
    the same lower bounds, since point n is row (n mod 512) of tile (n div 512) and every row of a tile is a point. -/
theorem fold_min_tiles (f : Fin 4096 → EReal) :
    ((Finset.univ : Finset (Fin 8)).fold min ⊤ fun t =>
        (Finset.univ : Finset (Fin 512)).fold min ⊤ fun r => f (Cert.Chamfer.row t r))
      = (Finset.univ : Finset (Fin 4096)).fold min ⊤ f := by
  refine eq_of_forall_le_iff fun c => ?_
  simp only [Finset.le_fold_min, Finset.mem_univ, true_implies, le_top, true_and]
  constructor
  · intro h n
    have hn := n.isLt
    have hc := h ⟨n.val / 512, by omega⟩ ⟨n.val % 512, Nat.mod_lt _ (by decide)⟩
    have e : Cert.Chamfer.row ⟨n.val / 512, by omega⟩ ⟨n.val % 512, Nat.mod_lt _ (by decide)⟩ = n :=
      Fin.ext (Nat.div_add_mod n.val 512)
    rwa [e] at hc
  · intro h t r
    exact h _

/-! ## A table clamped, rooted and averaged -/

section
variable [Cert.KernelIdeal.Facts]

/-- The zero the tables are clamped at, broadcast from a scalar, reads 0 everywhere. -/
theorem zeros_apply (j : S8x4096.Idx) :
    broadcastInDim S8x4096 ![] bcast_S_S8x4096 (constant (F := Ideal) S_ .f32 0x00000000#32) j = (0 : EReal) := by
  refine (broadcastInDim_apply _ bcast_S_S8x4096 _ j ix0 (fun a => a.elim0)).trans ?_
  show Ideal.ofBits .f32 0x00000000#32 = 0
  exact Ideal.ofBits_zero_f32

/-- A table whose entry (b, n) is f b n, clamped at zero and rooted, summed entirely from 0 and divided by 32768,
    is the mean of the roots. -/
theorem mean_root_apply (T : FVec Ideal S8x4096 .f32) (f : Fin 8 → Fin 4096 → EReal)
    (hT : ∀ (b : Fin 8) (n : Fin 4096), T (ix2 b n) = f b n) (i : S_.Idx) :
    Host.divf
        (Host.reduceAdd
          (Host.sqrt (maximumf T
            (broadcastInDim S8x4096 ![] bcast_S_S8x4096 (constant (F := Ideal) S_ .f32 0x00000000#32))))
          (constant (F := Ideal) S_ .f32 0x00000000#32) reducesTo_S8x4096_S_d0_1 h_S_)
        (constant (F := Ideal) S_ .f32 0x47000000#32) i
      = Cert.Chamfer.mean fun b n => Cert.Chamfer.root (f b n) := by
  have hroot : ∀ (b : Fin 8) (n : Fin 4096),
      Host.sqrt (maximumf T
        (broadcastInDim S8x4096 ![] bcast_S_S8x4096 (constant (F := Ideal) S_ .f32 0x00000000#32))) (ix2 b n)
        = Cert.Chamfer.root (f b n) := by
    intro b n
    show Ideal.sqrt (max (T (ix2 b n)) (broadcastInDim S8x4096 ![] bcast_S_S8x4096
      (constant (F := Ideal) S_ .f32 0x00000000#32) (ix2 b n))) = _
    rw [zeros_apply, hT]
    rfl
  generalize Host.sqrt (maximumf T
    (broadcastInDim S8x4096 ![] bcast_S_S8x4096 (constant (F := Ideal) S_ .f32 0x00000000#32))) = R at hroot
  show Ideal.div (Host.reduceAdd R (constant (F := Ideal) S_ .f32 0x00000000#32) reducesTo_S8x4096_S_d0_1 h_S_ i)
    (Ideal.ofBits .f32 0x47000000#32) = _
  unfold Cert.Chamfer.mean
  refine congrArg (fun s => Ideal.div s (Ideal.ofBits .f32 0x47000000#32)) ?_
  simp only [Host.reduceAdd, Ideal.hostReduceAdd_def]
  rw [Ideal.hostReduceAdd_total reducesTo_S8x4096_S_d0_1 (fun b => b.elim0) R _ i]
  have h0 : constant (F := Ideal) S_ .f32 0x00000000#32 (Shape.Idx.first h_S_) = (0 : EReal) := Ideal.ofBits_zero_f32
  rw [h0, zero_add, sum_idx2]
  exact Finset.sum_congr rfl fun b _ => Finset.sum_congr rfl fun n _ => hroot b n

/-! ## The host lines end at the loss -/

/-- With the kernel's first result the minimum over all targets and its second the per-tile minimum over sources,
    the host lines after the kernel compute the Chamfer loss. -/
theorem tail_loss (p q : Cert.Chamfer.Cloud)
    (o1 : (⟨S8x4096x1, .f32⟩ : BufTy).Contents (Elt Ideal)) (o2 : (⟨S8x8x1x4096, .f32⟩ : BufTy).Contents (Elt Ideal))
    (h1 : ∀ (b : Fin 8) (n : Fin 4096), o1 (ix3 b n (0 : Fin 1)) = Cert.Chamfer.toTarget p q b n)
    (h2 : ∀ (t : Fin 8) (b : Fin 8) (m : Fin 4096), o2 (ix4 t b (0 : Fin 1) m)
            = (Finset.univ : Finset (Fin 512)).fold min ⊤ fun r => Cert.Chamfer.d2 p q b (Cert.Chamfer.row t r) m) :
    tail (F := Ideal) o1 o2 = fun _ => Cert.Chamfer.loss p q := by
  funext i
  have hA := mean_root_apply (shapeCast S8x4096 o1 shapeCasts_S8x4096x1_S8x4096)
    (fun b n => Cert.Chamfer.toTarget p q b n)
    (fun b n => (shapeCast_ab1_ab_apply o1 shapeCasts_S8x4096x1_S8x4096 b n).trans (h1 b n)) i
  have hB := mean_root_apply
    (Host.reduce FloatOps.minimumf (shapeCast S8x8x4096 o2 shapeCasts_S8x8x1x4096_S8x8x4096)
      (constant (F := Ideal) S_ .f32 0x7F800000#32) reducesTo_S8x8x4096_S8x4096_d0 h_S_)
    (fun b m => Cert.Chamfer.toSource p q b m)
    (fun b m => by
      rw [reduceMin_tiles_apply]
      have hf : (fun t : Fin 8 => shapeCast S8x8x4096 o2 shapeCasts_S8x8x1x4096_S8x8x4096 (ix3 t b m))
          = fun t : Fin 8 => (Finset.univ : Finset (Fin 512)).fold min ⊤
              fun r => Cert.Chamfer.d2 p q b (Cert.Chamfer.row t r) m :=
        funext fun t => (shapeCast_ab1c_abc_apply o2 shapeCasts_S8x8x1x4096_S8x8x4096 t b m).trans (h2 t b m)
      rw [hf]
      exact fold_min_tiles fun n => Cert.Chamfer.d2 p q b n m) i
  unfold tail
  show Ideal.ofBits .f32 0x3F800000#32 * (_ + _) = _
  rw [hA, hB]
  rfl

end

end Cert.KernelIdeal.HostTail

end
-- ==== Proof.KValue.lean ====
/-
  The kernel program's result.

  With the arguments the clouds p (sources) and q (targets): the tile of grid point t is the squared distances between
  source tile t / 16 and target tile t % 16, so — by the running minimum along each row of the grid — the first
  result array, written back at the last point of each row, holds at (b, n, 0) the minimum over ALL target points of
  the squared distance from source point n, and the second, written back at every point, holds at (t, b, 0, m) the
  minimum over the 512 source points of tile t of the squared distance to target point m. The blocks written back
  tile both arrays. The host lines after the kernel turn these two arrays into the Chamfer loss.
-/
import proofs.«178521_j24215025614920_2_alg».proof.Proof.Chain
import proofs.«178521_j24215025614920_2_alg».proof.Proof.BlockIndex
import proofs.«178521_j24215025614920_2_alg».proof.Proof.HostTail
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KValue

open Cert.KernelIdeal Cert.KernelIdeal.Gen Cert.KernelIdeal.Body Cert.KernelIdeal.Blocks Cert.Chamfer

variable (m : (ℓ : Loc nD τ sig) → Buf (Elt Ideal) ℓ) (ρ : Dev nD → PrngReg)

/-- The source cloud and the target cloud: the two argument arrays as launched. -/
abbrev src (c : Dev nD) : Cloud := m ((c : Thread nD τ).loc main_arg0)
abbrev tgt (c : Dev nD) : Cloud := m ((c : Thread nD τ).loc main_arg1)

/-- The tile of grid point t is the squared distances between source tile t / 16 and target tile t % 16. -/
theorem tile_d2 (c : Dev nD) (t : Fin cfg0.N) (b : Fin 8) (r : Fin 512) (l : Fin 256) :
    tileD (iblk m c 0 t) (iblk m c 1 t) b r l = d2 (src m c) (tgt m c) b (row (ptRow t.val) r) (col (ptCol t.val) l) := by
  unfold tileD Cert.Chamfer.d2 Cert.Chamfer.sq Cert.Chamfer.dot
  rw [iblk0_apply m c t b r 0, iblk0_apply m c t b r 1, iblk0_apply m c t b r 2,
    iblk1_apply m c t b 0 l, iblk1_apply m c t b 1 l, iblk1_apply m c t b 2 l]

/-- The first result array: at (b, n, ·) the squared distance from source point n to its nearest target. -/
def near (c : Dev nD) : S8x4096x1.Idx → EReal :=
  fun i => toTarget (src m c) (tgt m c) ⟨(i 0).val, (i 0).isLt⟩ ⟨(i 1).val, (i 1).isLt⟩

/-- The second result array: at (t, b, ·, m) the squared distance from target point m to the nearest of the 512
    source points of tile t. -/
def nearTile (c : Dev nD) : S8x8x1x4096.Idx → EReal :=
  fun i => (Finset.univ : Finset (Fin 512)).fold min ⊤ fun r =>
    d2 (src m c) (tgt m c) ⟨(i 1).val, (i 1).isLt⟩ (row ⟨(i 0).val, (i 0).isLt⟩ r) ⟨(i 3).val, (i 3).isLt⟩

/-- Two columns [8,512,1] that agree at every (b, r, 0) are equal. -/
theorem ext_col {α : Type} (f g : S8x512x1.Idx → α) (h : ∀ (b : Fin 8) (r : Fin 512), f (ix3 b r (0 : Fin 1)) = g (ix3 b r (0 : Fin 1))) :
    f = g := by
  funext y
  obtain ⟨b, r, u, rfl⟩ : ∃ (b : Fin 8) (r : Fin 512) (u : Fin 1), y = ix3 b r u := ⟨y 0, y 1, y 2, eq_ix3 y⟩
  obtain rfl : u = 0 := Subsingleton.elim _ _
  exact h b r

/-- Two rows [1,8,1,256] that agree at every (0, b, 0, l) are equal. -/
theorem ext_lanes {α : Type} (f g : S1x8x1x256.Idx → α)
    (h : ∀ (b : Fin 8) (l : Fin 256), f (ix4 (0 : Fin 1) b (0 : Fin 1) l) = g (ix4 (0 : Fin 1) b (0 : Fin 1) l)) : f = g := by
  funext y
  obtain ⟨u, b, v, l, rfl⟩ : ∃ (u : Fin 1) (b : Fin 8) (v : Fin 1) (l : Fin 256), y = ix4 u b v l :=
    ⟨y 0, y 1, y 2, y 3, eq_ix4 y⟩
  obtain rfl : u = 0 := Subsingleton.elim _ _
  obtain rfl : v = 0 := Subsingleton.elim _ _
  exact h b l

/-- What the last point of a grid row writes back of the first output: its block of `near`. -/
theorem flushed2_eq (c : Dev nD) (t : Fin cfg0.N) (hf : (cfg0.win 2).flush t = true) :
    (dats m 0 c).flushed 2 t = ((cfg0.win 2).blk t).view.read (Elt Ideal) (near m c) := by
  have h15 : t.val % 16 = 15 := (flush0_2 t).mp hf
  show (cfg0.win 2).cut (grid0.coords t) ((dats m 0 c).after 2 t) = _
  rw [after0_2]
  refine ext_col _ _ fun b r => ?_
  show (outsAt0 m c t.val t.isLt).1 (ix3 b r (0 : Fin 1)) = near m c (((cfg0.win 2).blk t).view.emb (ix3 b r (0 : Fin 1)))
  rw [emb2]
  show _ = toTarget (src m c) (tgt m c) b (row (ptRow t.val) r)
  refine eq_of_forall_le_iff fun z => ?_
  rw [run_min m c _ _ (tile_d2 m c) t.val t.isLt b r z, h15]
  unfold toTarget
  rw [Finset.le_fold_min]
  simp only [Finset.mem_univ, true_implies, le_top, true_and]
  exact ⟨fun h mm => h mm (by have := mm.isLt; omega), fun h mm _ => h mm⟩

/-- What every point writes back of the second output: its block of `nearTile`. -/
theorem flushed3_eq (c : Dev nD) (t : Fin cfg0.N) :
    (dats m 0 c).flushed 3 t = ((cfg0.win 3).blk t).view.read (Elt Ideal) (nearTile m c) := by
  have hN : t.val < 128 := lt_of_lt_of_eq t.isLt (show cfg0.N = 128 from N_0)
  show (cfg0.win 3).cut (grid0.coords t) ((dats m 0 c).after 3 t) = _
  rw [after0_3]
  refine ext_lanes _ _ fun b l => ?_
  show (outsAt0 m c t.val t.isLt).2 (ix4 (0 : Fin 1) b (0 : Fin 1) l)
    = nearTile m c (((cfg0.win 3).blk t).view.emb (ix4 (0 : Fin 1) b (0 : Fin 1) l))
  rw [emb3, tile_min m c _ _ (tile_d2 m c) t b l]
  rfl

/-- The first result array after the run. -/
theorem final2 (c : Dev nD) : (dats m 0 c).arrAt 2 cfg0.N = near m c :=
  (dats m 0 c).arrAt_eq_of_cover 2 (near m c) (fun t hf => flushed2_eq m c t hf) cover2

/-- The second result array after the run. -/
theorem final3 (c : Dev nD) : (dats m 0 c).arrAt 3 cfg0.N = nearTile m c :=
  (dats m 0 c).arrAt_eq_of_cover 3 (nearTile m c) (fun t _ => flushed3_eq m c t) cover3

/-- The host lines after the region, applied to the two result arrays, end at the loss. -/
theorem result (c : Dev nD) :
    Pipeline.afterTail₀ cfgs (dats m) 0 (V0 m) [hostOps1] c main_v16 = fun _ => loss (src m c) (tgt m c) := by
  have e : Pipeline.afterTail₀ cfgs (dats m) 0 (V0 m) [hostOps1] c main_v16
      = Cert.KernelIdeal.HostTail.tail ((dats m 0 c).arrAt 2 cfg0.N) ((dats m 0 c).arrAt 3 cfg0.N) := by
    unfold Pipeline.afterTail₀
    show StableHlo.after hostOps1 _ (Proc.devRef .tc main_v16) = _
    after_results
    have e2 : Pipeline.withArrays (cfgs 0).spec c (V0 m c) (fun w => (dats m 0 c).arrAt w (cfgs 0).N) (Proc.tc.devRef main_v1_0)
        = (dats m 0 c).arrAt 2 cfg0.N := Pipeline.withArrays_arr spec0 launch0.win.arr_inj c _ _ 2
    have e3 : Pipeline.withArrays (cfgs 0).spec c (V0 m c) (fun w => (dats m 0 c).arrAt w (cfgs 0).N) (Proc.tc.devRef main_v1_1)
        = (dats m 0 c).arrAt 3 cfg0.N := Pipeline.withArrays_arr spec0 launch0.win.arr_inj c _ _ 3
    rw [e2, e3]
    rfl
  rw [e, final2, final3]
  exact Cert.KernelIdeal.HostTail.tail_loss (src m c) (tgt m c) (near m c) (nearTile m c) (fun b n => rfl) (fun t b mm => rfl)

/-- THE RUN, READ: every weakly fair execution of the kernel program ends with its result at the loss of its two
    arguments, and the arguments unchanged. -/
theorem run : θ_run defs (onTc (τ := τ) (main (F := Ideal))) ⟨m, fun _ => 0, ρ⟩ fun r => ∀ c : Dev nD,
      r.2.mem ((c : Thread nD τ).loc main_v16) = (fun _ => loss (src m c) (tgt m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v16 (Pipeline.mem_restRefs_of main_v16 (by decide) (by decide))).trans (result m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.KValue

end
-- ==== Proof.Algebra.lean ====
/-
  Facts about the extended reals that the Chamfer loss rests on, independent of either program.

  The clamped square root `root` is monotone and fixes +∞, so it commutes with a finite minimum taken from +∞:
  rooting every candidate and keeping the least is the same as keeping the least squared distance and rooting it.
  Division by a positive real is multiplication by its reciprocal, and on non-negative extended reals that
  multiplication distributes over finite sums, so the mean of the eight per-batch means of 4096 values each is
  the mean of all 32768 values.
-/
import proofs.«178521_j24215025614920_2_alg».proof.Proof.Spec
import Idealize.ShloMosaic.PureOps.Ideal
import Idealize.ShloMosaic.PureOps.Ideal.Laws

noncomputable section

open scoped BigOperators

namespace Cert.Chamfer

open Idealize.ShloMosaic Idealize.ShloMosaic.ValueIdx

/-! ## The square root on the non-negative extended reals -/

/-- The square root is monotone from zero upwards: on reals it is the real square root, and +∞ is sent to +∞. -/
theorem sqrt_le_sqrt_of_nonneg {a b : EReal} (ha : 0 ≤ a) (hab : a ≤ b) : Ideal.sqrt a ≤ Ideal.sqrt b := by
  induction a using EReal.rec with
  | bot => exact absurd ha (by simp)
  | top =>
    have hb : b = ⊤ := top_le_iff.1 hab
    rw [hb]
  | coe r =>
    have hr : 0 ≤ r := EReal.coe_nonneg.1 ha
    induction b using EReal.rec with
    | bot => exact absurd hab (by simp)
    | top => rw [Ideal.sqrt_top]; exact le_top
    | coe s =>
      have hrs : r ≤ s := EReal.coe_le_coe_iff.1 hab
      have hs : 0 ≤ s := hr.trans hrs
      rw [Ideal.sqrt_coe, Ideal.sqrt_coe, if_neg (not_lt.2 hr), if_neg (not_lt.2 hs)]
      exact EReal.coe_le_coe_iff.2 (Real.sqrt_le_sqrt hrs)

/-- The square root of a non-negative extended real is non-negative. -/
theorem sqrt_nonneg_of_nonneg {a : EReal} (ha : 0 ≤ a) : 0 ≤ Ideal.sqrt a := by
  have h := sqrt_le_sqrt_of_nonneg (le_refl (0 : EReal)) ha
  have h0 : Ideal.sqrt 0 = 0 := by
    rw [← EReal.coe_zero, Ideal.sqrt_coe, if_neg (lt_irrefl _), Real.sqrt_zero]
  rwa [h0] at h

/-! ## The clamped square root -/

/-- Clamping at zero and rooting is monotone. -/
theorem root_mono : Monotone root := fun x y hxy =>
  sqrt_le_sqrt_of_nonneg (le_max_right x 0) (max_le_max hxy (le_refl 0))

/-- +∞ stays +∞. -/
theorem root_top : root ⊤ = ⊤ := by
  unfold root
  rw [max_eq_left (le_top : (0 : EReal) ≤ ⊤), Ideal.sqrt_top]

/-- The clamped root is never negative. -/
theorem root_nonneg (x : EReal) : 0 ≤ root x := sqrt_nonneg_of_nonneg (le_max_right x 0)

/-- The clamped root of a minimum is the minimum of the clamped roots. -/
theorem root_min (x y : EReal) : root (min x y) = min (root x) (root y) := root_mono.map_min

/-- The clamped root commutes with a finite minimum taken from +∞. -/
theorem root_fold_min {ι : Type*} (s : Finset ι) (f : ι → EReal) :
    root (s.fold min ⊤ f) = s.fold min ⊤ (fun i => root (f i)) := by
  have h := Finset.fold_hom (op := (min : EReal → EReal → EReal)) (op' := (min : EReal → EReal → EReal))
    (s := s) (b := ⊤) (f := f) (m := root) root_min
  rw [root_top] at h
  exact h.symm

/-- A finite minimum of clamped roots, from +∞, is non-negative. -/
theorem fold_min_root_nonneg {ι : Type*} (s : Finset ι) (f : ι → EReal) :
    0 ≤ s.fold min ⊤ (fun i => root (f i)) :=
  (Finset.le_fold_min 0).2 ⟨le_top, fun i _ => root_nonneg (f i)⟩

/-! ## The three divisors -/

/-- The word 0x45800000 is 4096. -/
theorem ofBits_4096 : Ideal.ofBits .f32 0x45800000#32 = ((4096 : ℝ) : EReal) := by
  simp [Ideal.ofBits, Ideal.ieee, -EReal.coe_mul]
  norm_num

/-- The word 0x41000000 is 8. -/
theorem ofBits_8 : Ideal.ofBits .f32 0x41000000#32 = ((8 : ℝ) : EReal) := by
  simp [Ideal.ofBits, Ideal.ieee, -EReal.coe_mul]
  norm_num

/-- The word 0x47000000 is 32768. -/
theorem ofBits_32768 : Ideal.ofBits .f32 0x47000000#32 = ((32768 : ℝ) : EReal) := by
  simp [Ideal.ofBits, Ideal.ieee, -EReal.coe_mul]
  norm_num

/-! ## Sums of non-negative extended reals -/

/-- Multiplication distributes over a finite sum of non-negative extended reals. -/
theorem sum_mul_of_nonneg {ι : Type*} (s : Finset ι) (g : ι → EReal) (c : EReal) (hg : ∀ i ∈ s, 0 ≤ g i) :
    (∑ i ∈ s, g i) * c = ∑ i ∈ s, g i * c := by
  classical
  induction s using Finset.induction_on with
  | empty => simp
  | insert a s ha ih =>
    rw [Finset.sum_insert ha, Finset.sum_insert ha,
      EReal.right_distrib_of_nonneg (hg a (Finset.mem_insert_self a s))
        (Finset.sum_nonneg fun i hi => hg i (Finset.mem_insert_of_mem hi)),
      ih fun i hi => hg i (Finset.mem_insert_of_mem hi)]

/-- The mean of the eight per-batch means is the mean of the whole table, for a table of non-negative values:
    ((Σ_b (Σ_n f b n) / 4096) / 8 = (Σ_b Σ_n f b n) / 32768. -/
theorem mean_of_means (f : Fin 8 → Fin 4096 → EReal) (hf : ∀ b n, 0 ≤ f b n) :
    Ideal.div (∑ b : Fin 8, Ideal.div (∑ n : Fin 4096, f b n) (Ideal.ofBits .f32 0x45800000#32))
        (Ideal.ofBits .f32 0x41000000#32) = mean f := by
  unfold mean
  rw [ofBits_4096, ofBits_8, ofBits_32768,
    Ideal.div_coe (by norm_num : (8 : ℝ) ≠ 0), Ideal.div_coe (by norm_num : (32768 : ℝ) ≠ 0)]
  have h1 : ∀ b : Fin 8, Ideal.div (∑ n : Fin 4096, f b n) ((4096 : ℝ) : EReal)
      = (∑ n : Fin 4096, f b n) * ((1 / 4096 : ℝ) : EReal) :=
    fun b => Ideal.div_coe (by norm_num : (4096 : ℝ) ≠ 0) _
  rw [Finset.sum_congr rfl fun b _ => h1 b,
    ← sum_mul_of_nonneg Finset.univ (fun b : Fin 8 => ∑ n : Fin 4096, f b n) _
      (fun b _ => Finset.sum_nonneg fun n _ => hf b n),
    mul_assoc, ← EReal.coe_mul]
  norm_num

end Cert.Chamfer

end
-- ==== Proof.RefValue.lean ====
/-
  What the reference computes, stage by stage, is the Chamfer loss of its two arguments.

  At the source point n and the target point m of batch b the reference forms |s|² + |t|² − 2⟨s, t⟩ (each norm and
  the inner product a sum over the three coordinates, starting from zero), clamps it at zero and roots it. It then
  takes the minimum over the targets (for every source point) and over the sources (for every target point), both
  from +∞; since the clamped root is monotone and fixes +∞, each is the clamped root of the least SQUARED distance.
  Each batch's 4096 roots are summed and divided by 4096, the eight quotients summed and divided by 8: as all the
  roots are non-negative, this is their sum divided by 32768. The two means are added and multiplied by one.
-/
import proofs.«178521_j24215025614920_2_alg».proof.Proof.Algebra
import proofs.«178521_j24215025614920_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Chamfer

/-- An argument of the reference: a cloud. -/
abbrev Arg : Type := (⟨S8x4096x3, .f32⟩ : BufTy).Contents (Elt Ideal)

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The squared distance -/

/-- |s|² of source point n, read at (b, n, m): the three squares, first coordinate to last. -/
theorem v7_apply (x0 : Arg) (b : Fin 8) (n m : Fin 4096) :
    val_main_v7 (F := Ideal) x0 (ix3 b n m) = sq x0 b n := by
  have e : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  rw [val_main_v7_apply, val_main_v5_apply, val_main_v1_apply, val_main_cst_apply, Fin.sum_univ_three, e, e, e]
  simp only [val_main_v0_apply, Ideal.mulf_def, Ideal.ofBits_def, Ideal.ofBits_zero_f32, zero_add]
  rfl

/-- |t|² of target point m, read at (b, n, m). -/
theorem v8_apply (x1 : Arg) (b : Fin 8) (n m : Fin 4096) :
    val_main_v8 (F := Ideal) x1 (ix3 b n m) = sq x1 b m := by
  have e : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  rw [val_main_v8_apply, val_main_v6_apply, val_main_v3_apply, val_main_cst_0_apply, Fin.sum_univ_three, e, e, e]
  simp only [val_main_v2_apply, Ideal.mulf_def, Ideal.ofBits_def, Ideal.ofBits_zero_f32, zero_add]
  rfl

/-- ⟨s, t⟩ read at (b, n, m). -/
theorem v4_apply (x0 x1 : Arg) (b : Fin 8) (n m : Fin 4096) :
    val_main_v4 (F := Ideal) x0 x1 (ix3 b n m) = dot x0 x1 b n m := by
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v4_apply, Fin.sum_univ_three, el, el, el, er, er, er]
  rfl

/-- The reference's squared distance at (b, n, m) is the Gram expression. -/
theorem v12_apply (x0 x1 : Arg) (b : Fin 8) (n m : Fin 4096) :
    val_main_v12 (F := Ideal) x0 x1 (ix3 b n m) = d2 x0 x1 b n m := by
  rw [val_main_v12_apply, val_main_v9_apply, val_main_v11_apply, val_main_v10_apply, val_main_cst_1_apply,
    v7_apply, v8_apply, v4_apply]
  rfl

/-- Clamped at zero and rooted. -/
theorem v15_apply (x0 x1 : Arg) (b : Fin 8) (n m : Fin 4096) :
    val_main_v15 (F := Ideal) x0 x1 (ix3 b n m) = root (d2 x0 x1 b n m) := by
  rw [val_main_v15_apply, val_main_v14_apply, val_main_v13_apply, val_main_cst_2_apply, v12_apply]
  simp only [Ideal.hostUnary_sqrt_def, Ideal.maximumf_def, Ideal.ofBits_def, Ideal.ofBits_zero_f32]
  rfl

/-! ## The two minima -/

/-- The index (b, n) of the table of nearest targets, with target m put back on the last axis, is (b, n, m). -/
theorem lift_last (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  fin_cases c <;> rfl

/-- The index (b, m) of the table of nearest sources, with source n put back on the middle axis, is (b, n, m). -/
theorem lift_mid (h : S8x4096x4096.Reduces [1] S8x4096) (b : Fin 8) (m : Fin 4096) (k : Fin (S8x4096x4096.size 1)) :
    h.lift (ix2 b m) k = ix3 b (⟨k.val, k.isLt⟩ : Fin 4096) m := by
  funext c; apply Fin.ext
  fin_cases c <;> rfl

/-- The word 0x7F800000 is +∞. -/
theorem ofBits_inf : Ideal.ofBits .f32 0x7F800000#32 = (⊤ : EReal) := by
  simp [Ideal.ofBits, Ideal.ieee]

/-- The least rooted distance from source point n to a target is the clamped root of the least squared one. -/
theorem v16_apply (x0 x1 : Arg) (b : Fin 8) (n : Fin 4096) :
    val_main_v16 (F := Ideal) x0 x1 (ix2 b n) = root (toTarget x0 x1 b n) := by
  have h : S8x4096x4096.Reduces [2] S8x4096 := by decide
  unfold val_main_v16
  rw [Host.reduce_eq_fold_single FloatOps.minimumf _ _ reducesTo_S8x4096x4096_S8x4096_d2 h h_S_]
  have hf : (val_main_v15 (F := Ideal) x0 x1 ∘ h.lift (ix2 b n)) = fun m : Fin 4096 => root (d2 x0 x1 b n m) :=
    funext fun k => (congrArg (val_main_v15 (F := Ideal) x0 x1) (lift_last h b n k)).trans (v15_apply x0 x1 b n _)
  have hi : val_main_cst_3 (F := Ideal) (Shape.Idx.first h_S_) = (⊤ : EReal) :=
    (val_main_cst_3_apply _).trans ofBits_inf
  unfold toTarget
  rw [root_fold_min]
  refine Eq.trans ?_ (congrArg (fun f => Finset.fold min (⊤ : EReal) f (Finset.univ : Finset (Fin 4096))) hf)
  exact congrArg (fun c => Finset.fold min c (val_main_v15 (F := Ideal) x0 x1 ∘ h.lift (ix2 b n))
    (Finset.univ : Finset (Fin 4096))) hi

/-- The least rooted distance from target point m to a source is the clamped root of the least squared one. -/
theorem v20_apply (x0 x1 : Arg) (b : Fin 8) (m : Fin 4096) :
    val_main_v20 (F := Ideal) x0 x1 (ix2 b m) = root (toSource x0 x1 b m) := by
  have h : S8x4096x4096.Reduces [1] S8x4096 := by decide
  unfold val_main_v20
  rw [Host.reduce_eq_fold_single FloatOps.minimumf _ _ reducesTo_S8x4096x4096_S8x4096_d1 h h_S_]
  have hf : (val_main_v15 (F := Ideal) x0 x1 ∘ h.lift (ix2 b m)) = fun n : Fin 4096 => root (d2 x0 x1 b n m) :=
    funext fun k => (congrArg (val_main_v15 (F := Ideal) x0 x1) (lift_mid h b m k)).trans (v15_apply x0 x1 b _ m)
  have hi : val_main_cst_6 (F := Ideal) (Shape.Idx.first h_S_) = (⊤ : EReal) :=
    (val_main_cst_6_apply _).trans ofBits_inf
  unfold toSource
  rw [root_fold_min]
  refine Eq.trans ?_ (congrArg (fun f => Finset.fold min (⊤ : EReal) f (Finset.univ : Finset (Fin 4096))) hf)
  exact congrArg (fun c => Finset.fold min c (val_main_v15 (F := Ideal) x0 x1 ∘ h.lift (ix2 b m))
    (Finset.univ : Finset (Fin 4096))) hi

/-! ## The two means -/

/-- Batch b's mean distance to the nearest target. -/
theorem v19_apply (x0 x1 : Arg) (b : Fin 8) :
    val_main_v19 (F := Ideal) x0 x1 (ix1 b)
      = Ideal.div (∑ n : Fin 4096, root (toTarget x0 x1 b n)) (Ideal.ofBits .f32 0x45800000#32) := by
  have e : ∀ n : Fin 4096, idx_main_v17 (ix1 b) n = ix2 b n := fun n =>
    funext fun a => Fin.ext (by match a with | ⟨0, _⟩ => rfl | ⟨1, _⟩ => rfl)
  rw [val_main_v19_apply, val_main_v18_apply, val_main_cst_5_apply, val_main_v17_apply, val_main_cst_4_apply,
    Finset.sum_congr rfl fun n _ => (congrArg (val_main_v16 (F := Ideal) x0 x1) (e n)).trans (v16_apply x0 x1 b n)]
  simp only [Ideal.hostDivf_def, Ideal.ofBits_def, Ideal.ofBits_zero_f32, zero_add]

/-- Batch b's mean distance to the nearest source. -/
theorem v23_apply (x0 x1 : Arg) (b : Fin 8) :
    val_main_v23 (F := Ideal) x0 x1 (ix1 b)
      = Ideal.div (∑ m : Fin 4096, root (toSource x0 x1 b m)) (Ideal.ofBits .f32 0x45800000#32) := by
  have e : ∀ m : Fin 4096, idx_main_v21 (ix1 b) m = ix2 b m := fun m =>
    funext fun a => Fin.ext (by match a with | ⟨0, _⟩ => rfl | ⟨1, _⟩ => rfl)
  rw [val_main_v23_apply, val_main_v22_apply, val_main_cst_8_apply, val_main_v21_apply, val_main_cst_7_apply,
    Finset.sum_congr rfl fun m _ => (congrArg (val_main_v20 (F := Ideal) x0 x1) (e m)).trans (v20_apply x0 x1 b m)]
  simp only [Ideal.hostDivf_def, Ideal.ofBits_def, Ideal.ofBits_zero_f32, zero_add]

/-- The mean over the eight batches of the per-batch means is the mean distance to the nearest target. -/
theorem v25_apply (x0 x1 : Arg) (i : S_.Idx) :
    val_main_v25 (F := Ideal) x0 x1 i = mean (fun b n => root (toTarget x0 x1 b n)) := by
  rw [val_main_v25_apply, val_main_cst_10_apply, val_main_v24_apply, val_main_cst_9_apply, sum_idx1,
    Finset.sum_congr rfl fun b _ => v19_apply x0 x1 b]
  simp only [Ideal.hostDivf_def, Ideal.ofBits_def, Ideal.ofBits_zero_f32, zero_add]
  exact mean_of_means _ fun b n => root_nonneg _

/-- The same for the nearest source. -/
theorem v27_apply (x0 x1 : Arg) (i : S_.Idx) :
    val_main_v27 (F := Ideal) x0 x1 i = mean (fun b m => root (toSource x0 x1 b m)) := by
  rw [val_main_v27_apply, val_main_cst_12_apply, val_main_v26_apply, val_main_cst_11_apply, sum_idx1,
    Finset.sum_congr rfl fun b _ => v23_apply x0 x1 b]
  simp only [Ideal.hostDivf_def, Ideal.ofBits_def, Ideal.ofBits_zero_f32, zero_add]
  exact mean_of_means _ fun b m => root_nonneg _

/-! ## The result -/

/-- The reference ends at the Chamfer loss of its two arguments. -/
theorem result_eq (x0 x1 : (⟨S8x4096x3, .f32⟩ : BufTy).Contents (Elt Ideal)) :
    val_main_v29 (F := Ideal) x0 x1 = fun _ => loss x0 x1 := by
  funext i
  rw [val_main_v29_apply, val_main_cst_13_apply, val_main_v28_apply, v25_apply, v27_apply]
  rfl

end Cert.ReferenceIdeal.RefValue

end
-- ==== Proof.lean ====
/-
  The Chamfer-distance kernel against its reference, over the extended reals.

  Both programs compute, for two clouds of 8 × 4096 points of three coordinates, the mean over all source points of
  the distance to the nearest target point plus the mean over all target points of the distance to the nearest source
  point, the distance between s and t being the clamped root of |s|² + |t|² − 2⟨s, t⟩.
  The reference forms every distance, roots it, and then minimizes; it averages per batch and then over the batches.
  The kernel walks a grid of 8 × 16 tiles of 512 × 256 squared distances: it keeps, along each row of the grid, a
  running minimum per source point over the target tiles, and per tile a minimum per target point over the tile's
  source points, which the host afterwards minimizes over the 8 source tiles; the roots are taken last and both
  tables are averaged over their 32768 entries at once.
  The two agree because the clamped root is monotone and fixes +∞, so it commutes with a minimum taken from +∞;
  because a minimum over tiles of minima within tiles is the minimum over all points; and because, on non-negative
  extended reals, the mean of the eight batch means is the mean of all values.
  The three frames: the two kernel programs' are the launch-and-body certificates of their pipelines, the reference's
  is its run with the result dropped. The idealization rewrote no operation, so `preserves` has nothing to state.
-/
import proofs.«178521_j24215025614920_2_alg».proof.Defs
import proofs.«178521_j24215025614920_2_alg».proof.Proof.Gen.Kernel
import proofs.«178521_j24215025614920_2_alg».proof.Proof.Gen.Kernel.Skeleton
import proofs.«178521_j24215025614920_2_alg».proof.Proof.Gen.Kernel.Launch
import proofs.«178521_j24215025614920_2_alg».proof.Proof.Gen.Kernel.Points
import proofs.«178521_j24215025614920_2_alg».proof.Proof.Gen.Kernel.Frame
import proofs.«178521_j24215025614920_2_alg».proof.Proof.Gen.KernelIdeal
import proofs.«178521_j24215025614920_2_alg».proof.Proof.Gen.KernelIdeal.Skeleton
import proofs.«178521_j24215025614920_2_alg».proof.Proof.Gen.KernelIdeal.Launch
import proofs.«178521_j24215025614920_2_alg».proof.Proof.Gen.KernelIdeal.Points
import proofs.«178521_j24215025614920_2_alg».proof.Proof.Gen.KernelIdeal.Frame
import proofs.«178521_j24215025614920_2_alg».proof.Proof.Gen.ReferenceIdeal
import proofs.«178521_j24215025614920_2_alg».proof.Proof.Gen.ReferenceIdeal.Run
import proofs.«178521_j24215025614920_2_alg».proof.Proof.Gen.ReferenceIdeal.Read
import proofs.«178521_j24215025614920_2_alg».proof.Proof.Gen.Pre_finite_inputs
import proofs.«178521_j24215025614920_2_alg».proof.Proof.KValue
import proofs.«178521_j24215025614920_2_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Over the extended reals both programs end at the Chamfer loss of their arguments, which agree. -/
theorem algebraic : Cert.algebraic_KernelIdeal_ReferenceIdeal := by
  intro m ρ m' ρ' _ hagree
  refine ⟨fun c => fun _ => Cert.Chamfer.loss (Cert.KernelIdeal.KValue.src m c) (Cert.KernelIdeal.KValue.tgt m c),
    Cert.KernelIdeal.KValue.run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v29_eq _ _).trans
    (Cert.ReferenceIdeal.RefValue.result_eq _ _))).trans ?_
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
